-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩
abbrev S64x64x64x64 : Shape := ⟨4, ![64, 64, 64, 64]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  shapeCasts_S4096x4096_S64x64x64x64 : S4096x4096.ShapeCasts S64x64x64x64
  bcast_S_S64x64x64x64 : S_.BroadcastsInDim S64x64x64x64 (![] : Fin 0 → Fin S64x64x64x64.rank)
  reducesTo_S64x64x64x64_S_d0_1_2_3 : S64x64x64x64.ReducesTo [0, 1, 2, 3] S_

variable [Facts]

def fn_part1 {F : FTy → Type} [FloatOps F] (main_v13 : IVec S_ 1) (main_v16 : IVec S64x64x64x64 1) (main_v17 : FVec F S64x64x64x64 .f32) : IVec S_ 1 :=
  let main_cst_4 : FVec F S_ .f32 := constant S_ .f32 0x00000000#32
  let main_v18 : FVec F S64x64x64x64 .f32 := broadcastInDim S64x64x64x64 ![] bcast_S_S64x64x64x64 main_cst_4
  let main_v19 : IVec S64x64x64x64 1 := cmpf .oeq main_v17 main_v18
  let main_v20 : IVec S64x64x64x64 1 := ori main_v16 main_v19
  let main_c_5 : IVec S_ 1 := constantI S_ 1 1#1
  let main_v21 : IVec S_ 1 := (fun x v => Host.reduce IntOp.andi x v reducesTo_S64x64x64x64_S_d0_1_2_3 h_S_) main_v20 main_c_5
  let main_v22 : IVec S_ 1 := andi main_v13 main_v21
  main_v22

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : IVec S64x64x64x64 32 := iotaInDim S64x64x64x64 32 0
  let main_v15 : IVec S64x64x64x64 32 := iotaInDim S64x64x64x64 32 2
  let main_v16 : IVec S64x64x64x64 1 := cmpi .eq main_v14 main_v15
  let main_v17 : FVec F S64x64x64x64 .f32 := shapeCast S64x64x64x64 main_arg2 shapeCasts_S4096x4096_S64x64x64x64
  fn_part1 (F := F) main_v13 main_v16 main_v17
-- ==== Kernel.lean ====
abbrev S8192x4096 : Shape := ⟨2, ![8192, 4096]⟩
abbrev S4096x4096 : Shape := ⟨2, ![4096, 4096]⟩
abbrev S16x256x16x256 : Shape := ⟨4, ![16, 256, 16, 256]⟩
abbrev S16 : Shape := ⟨1, ![16]⟩
abbrev S_ : Shape := ⟨0, ![]⟩
abbrev S16x1 : Shape := ⟨2, ![16, 1]⟩
abbrev S16x2 : Shape := ⟨2, ![16, 2]⟩
abbrev S16x256x256 : Shape := ⟨3, ![16, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 45
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S16x256x16x256, .f32⟩
  | .hbm, ⟨4, _⟩ => ⟨S16x256x16x256, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x1, .i32⟩
  | .hbm, ⟨22, _⟩ => ⟨S16x2, .i32⟩
  | .hbm, ⟨23, _⟩ => ⟨S16x256x256, .f32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S16x1, .i32⟩
  | .hbm, ⟨40, _⟩ => ⟨S16x2, .i32⟩
  | .hbm, ⟨41, _⟩ => ⟨S16x256x256, .f32⟩
  | .hbm, ⟨42, _⟩ => ⟨S16x256x256, .f32⟩
  | .hbm, ⟨43, _⟩ => ⟨S16x256x256, .f32⟩
  | .hbm, ⟨44, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1x256x256, .f32⟩
  | .local _ .vmem, ⟨3, _⟩ => ⟨S1x256x256, .f32⟩
  | .local _ .vmem, ⟨4, _⟩ => ⟨S1024x256, .f32⟩
  | .local _ .vmem, ⟨5, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096x4096_S16x256x16x256 : S4096x4096.ShapeCasts S16x256x16x256
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  transposes_S16x256x256_S16x256x256_0_2_1 : S16x256x256.Transposes [0, 2, 1] S16x256x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  gather_S16x256x16x256_S16x2_S16x256x256_12_02_n_n_02_1_12561256_wf : GatherDims.WF S16x256x16x256 S16x2 S16x256x256 [1, 2] [0, 2] [] [0, 2] [] 1 ![1, 256, 1, 256]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x4096.size a
  hwx0_2 : ∀ i : grid0.Coords, EltTy.bits .f32 = 32 ∨ (Rect.block (s := S8192x4096) S1024x256.size (cc0_transform_2 i) (hinb0_2 i)).WholeWords (EltTy.packing .f32)

variable [Facts₀]

def gather_S16x256x16x256_S16x2_S16x256x256_12_02_n_n_02_1_12561256 : GatherDims S16x256x16x256 S16x2 S16x256x256 where
  offsetDims := [1, 2]
  collapsedSliceDims := [0, 2]
  operandBatchingDims := []
  startIndicesBatchingDims := []
  startIndexMap := [0, 2]
  indexVectorDim := 1
  sliceSizes := ![1, 256, 1, 256]
  wf := gather_S16x256x16x256_S16x2_S16x256x256_12_02_n_n_02_1_12561256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics of the certificate, stated over plain arrays of extended reals and importing no program.

  The kernel splits the 4096 feature columns into 16 groups of 256. Entry `(n, c)` of its result, with `c` in
  group `g = c / 256`, is the sum over the 256 columns `j` of group `g` of `x[n, j] · wt[g, j − 256 g, c − 256 g]`, where
  `wt[g, k, o] = weight[256 g + o, 256 g + k] · mask[256 g + o, 256 g + k]` is the masked diagonal super-block of
  the weight, transposed. The reference sums `x[n, j] · (weight[c, j] · mask[c, j])` over ALL 4096 columns `j`.
  The two agree when the mask vanishes off the diagonal 64×64 blocks: a column `j` outside group `g` lies in
  another 64-block than `c` (because `c / 256 = (c / 64) / 4`), so its term is `x · (w · 0) = 0` — on the extended
  reals too, where `a · 0 = 0` for every `a`, infinite or not; what is left is the kernel's sum.
-/
import Idealize.ShloMosaic.PureOps.Ideal
import Idealize.ShloMosaic.Lib.ValueIdx

noncomputable section

namespace Cert.Proof.Spec

open Idealize.ShloMosaic Idealize.ShloMosaic.ValueIdx

/-- Column `k` of group `g`: `256 g + k`. -/
abbrev col (g : Fin 16) (k : Fin 256) : Fin 4096 := ⟨256 * g.val + k.val, by omega⟩

/-- The group of a column, and its place inside the group. -/
abbrev grp (c : Fin 4096) : Fin 16 := ⟨c.val / 256, by omega⟩
abbrev off (c : Fin 4096) : Fin 256 := ⟨c.val % 256, by omega⟩

theorem col_grp_off (c : Fin 4096) : col (grp c) (off c) = c := Fin.ext (by show 256 * (c.val / 256) + c.val % 256 = c.val; omega)

/-- Entry `(n, c)` of the kernel's result, from the activations and the 16 transposed masked diagonal
    super-blocks `wt`: the sum over the 256 columns of `c`'s group. -/
def blockEntry (x : (⟨2, ![8192, 4096]⟩ : Shape).Idx → EReal) (wt : (⟨3, ![16, 256, 256]⟩ : Shape).Idx → EReal)
    (n : Fin 8192) (c : Fin 4096) : EReal :=
  ∑ k : Fin 256, x (ix2 n (col (grp c) k)) * wt (ix3 (grp c) k (off c))

/-- Entry `(n, c)` of the reference's result: the dense product with the masked weight, over all 4096 columns. -/
def denseEntry (x : (⟨2, ![8192, 4096]⟩ : Shape).Idx → EReal) (w mk : (⟨2, ![4096, 4096]⟩ : Shape).Idx → EReal)
    (n : Fin 8192) (c : Fin 4096) : EReal :=
  ∑ k : Fin 4096, x (ix2 n k) * (w (ix2 c k) * mk (ix2 c k))

/-- THE KERNEL'S RESULT as an array. -/
def blockSum (x : (⟨2, ![8192, 4096]⟩ : Shape).Idx → EReal) (wt : (⟨3, ![16, 256, 256]⟩ : Shape).Idx → EReal) :
    (⟨2, ![8192, 4096]⟩ : Shape).Idx → EReal :=
  fun i => blockEntry x wt ⟨(i 0).val, idx2_lt0 i⟩ ⟨(i 1).val, idx2_lt1 i⟩

/-- THE REFERENCE'S RESULT as an array. -/
def denseSum (x : (⟨2, ![8192, 4096]⟩ : Shape).Idx → EReal) (w mk : (⟨2, ![4096, 4096]⟩ : Shape).Idx → EReal) :
    (⟨2, ![8192, 4096]⟩ : Shape).Idx → EReal :=
  fun i => denseEntry x w mk ⟨(i 0).val, idx2_lt0 i⟩ ⟨(i 1).val, idx2_lt1 i⟩

/-- A sum over the 4096 columns whose terms vanish outside group `g` is the sum over the 256 columns of `g`:
    the columns are the pairs (group, place), and every group but `g` contributes zero. -/
theorem sum_group (f : Fin 4096 → EReal) (g : Fin 16) (hf : ∀ k : Fin 4096, k.val / 256 ≠ g.val → f k = 0) :
    ∑ k : Fin 4096, f k = ∑ k : Fin 256, f (col g k) := by
  have e : (∑ k : Fin 4096, f k) = ∑ p : Fin 16 × Fin 256, f (col p.1 p.2) := by
    refine (Fintype.sum_equiv (finProdFinEquiv (m := 16) (n := 256)) (fun p => f (col p.1 p.2)) f (fun p => ?_)).symm
    refine congrArg f (Fin.ext ?_)
    show 256 * p.1.val + p.2.val = p.2.val + 256 * p.1.val
    omega
  rw [e, Fintype.sum_prod_type]
  refine Finset.sum_eq_single g (fun g' _ hne => Finset.sum_eq_zero fun k _ => hf _ ?_) (fun h => absurd (Finset.mem_univ g) h)
  show (256 * g'.val + k.val) / 256 ≠ g.val
  have hk : k.val < 256 := k.isLt
  have : g'.val ≠ g.val := fun h => hne (Fin.ext h)
  omega

/-- THE LAW at one entry: with `wt` the transposed masked diagonal super-blocks and the mask zero off the
    diagonal 64×64 blocks, the dense sum is the sum over the entry's group. -/
theorem denseEntry_eq_blockEntry (x : (⟨2, ![8192, 4096]⟩ : Shape).Idx → EReal) (w mk : (⟨2, ![4096, 4096]⟩ : Shape).Idx → EReal)
    (wt : (⟨3, ![16, 256, 256]⟩ : Shape).Idx → EReal)
    (hwt : ∀ (g : Fin 16) (k o : Fin 256), wt (ix3 g k o) = w (ix2 (col g o) (col g k)) * mk (ix2 (col g o) (col g k)))
    (hmk : ∀ o j : Fin 4096, o.val / 64 ≠ j.val / 64 → mk (ix2 o j) = 0) (n : Fin 8192) (c : Fin 4096) :
    denseEntry x w mk n c = blockEntry x wt n c := by
  unfold denseEntry blockEntry
  rw [sum_group _ (grp c)]
  · refine Finset.sum_congr rfl fun k _ => ?_
    rw [hwt, col_grp_off]
  · intro k hk
    have hz : mk (ix2 c k) = 0 := hmk c k (by
      have h1 : c.val / 256 = c.val / 64 / 4 := by omega
      have h2 : k.val / 256 = k.val / 64 / 4 := by omega
      have hk' : k.val / 256 ≠ c.val / 256 := hk
      intro h; apply hk'; rw [h1, h2, h])
    rw [hz, mul_zero, mul_zero]

/-- THE LAW: with `wt` the transposed masked diagonal super-blocks and the mask zero off the diagonal 64×64
    blocks, the dense sum is the block sum. -/
theorem denseSum_eq_blockSum (x : (⟨2, ![8192, 4096]⟩ : Shape).Idx → EReal) (w mk : (⟨2, ![4096, 4096]⟩ : Shape).Idx → EReal)
    (wt : (⟨3, ![16, 256, 256]⟩ : Shape).Idx → EReal)
    (hwt : ∀ (g : Fin 16) (k o : Fin 256), wt (ix3 g k o) = w (ix2 (col g o) (col g k)) * mk (ix2 (col g o) (col g k)))
    (hmk : ∀ o j : Fin 4096, o.val / 64 ≠ j.val / 64 → mk (ix2 o j) = 0) :
    denseSum x w mk = blockSum x wt := by
  funext i
  exact denseEntry_eq_blockEntry x w mk wt hwt hmk _ _

end Cert.Proof.Spec

end
-- ==== Proof.Payload.lean ====
/-
  The kernel body's arithmetic read at one entry. The body loads a 1024×256 block `x0` of the activations and one
  256×256 super-block `x2` (carried as [1, 256, 256]), rounds both to bf16 — the identity on the extended reals —
  and multiplies them into a zero accumulator: entry `(r, o)` of what it stores is `∑ k, x0[r, k] · x2[0, k, o]`.
-/
import proofs.«116788_j15771119911211_2_alg».proof.Proof.Gen.KernelIdeal.Skeleton
import Idealize.ShloMosaic.Lib.ValueIdx
import Idealize.ShloMosaic.Lib.ValueLayout
import Idealize.ShloMosaic.PureOps.Ideal.Laws

noncomputable section

namespace Cert.Proof.Payload

open Cert.KernelIdeal Cert.KernelIdeal.Gen Idealize.ShloMosaic Idealize.ShloMosaic.ValueIdx

/-- The block product's dimension numbers: the left operand's axis 1 against the right operand's axis 0. -/
abbrev dd : DotDims S1024x256 S256x256 S1024x256 := dot_S1024x256_S256x256_S1024x256_1_0_0_1_n_n

theorem lhs_row (j : S1024x256.Idx) (q : dd.contr.Idx) : (dd.lhsIdx j q 0).val = (j 0).val := by
  unfold DotDims.lhsIdx
  rw [dif_neg (show ¬(0 : Fin S1024x256.rank) ∈ dd.lhsBatch by decide), dif_pos (show (0 : Fin S1024x256.rank) ∈ dd.lhsNonContracting by decide)]
  rfl
theorem lhs_contr (j : S1024x256.Idx) (q : dd.contr.Idx) : (dd.lhsIdx j q 1).val = (q ⟨0, by decide⟩).val :=
  dd.lhsIdx_val_of_single rfl j q
theorem rhs_contr (j : S1024x256.Idx) (q : dd.contr.Idx) : (dd.rhsIdx j q 0).val = (q ⟨0, by decide⟩).val :=
  dd.rhsIdx_val_of_single rfl j q
theorem rhs_col (j : S1024x256.Idx) (q : dd.contr.Idx) : (dd.rhsIdx j q 1).val = (j 1).val := by
  unfold DotDims.rhsIdx
  rw [dif_neg (show ¬(1 : Fin S256x256.rank) ∈ dd.rhsBatch by decide), dif_pos (show (1 : Fin S256x256.rank) ∈ dd.rhsNonContracting by decide)]
  rfl

/-- ENTRY `(r, o)` OF THE STORED BLOCK: the row of the activation block against the column of the super-block. -/
theorem pay_apply (x0 : Vec Ideal S1024x256 .f32) (x2 : Vec Ideal S1x256x256 .f32) (r : Fin 1024) (o : Fin 256) :
    k0_pay1 (F := Ideal) x0 x2 (ix2 r o) = ∑ k : Fin 256, x0 (ix2 r k) * x2 (ix3 (0 : Fin 1) k o) := by
  unfold k0_pay1
  refine (Ideal.matmul_constant_zero_apply dd none _ _ (ix2 r o)).trans ?_
  rw [← Equiv.sum_comp (contrEquiv1 dd 256 rfl rfl).symm]
  refine Finset.sum_congr rfl fun k _ => ?_
  have hk := contrEquiv1_symm_val dd 256 rfl rfl k
  have el : dd.lhsIdx (ix2 r o) ((contrEquiv1 dd 256 rfl rfl).symm k) = ix2 r k := funext fun a => Fin.ext (by
    match a with
    | ⟨0, _⟩ => exact lhs_row _ _
    | ⟨1, _⟩ => exact (lhs_contr _ _).trans hk)
  have er : dd.rhsIdx (ix2 r o) ((contrEquiv1 dd 256 rfl rfl).symm k) = ix2 k o := funext fun a => Fin.ext (by
    match a with
    | ⟨0, _⟩ => exact (rhs_contr _ _).trans hk
    | ⟨1, _⟩ => exact rhs_col _ _)
  rw [el, er]
  exact congrArg (x0 (ix2 r k) * ·) (shapeCast_1ab_ab_apply x2 _ k o)

end Cert.Proof.Payload

end
-- ==== Proof.KernelValue.lean ====
/-
  From the kernel's blocks to its result array. The grid has 8 × 16 points; point `(bn, g)` stages rows
  `1024 bn … 1024 bn + 1023`, columns `256 g … 256 g + 255` of the activations, super-block `g` of the transposed
  masked diagonal blocks, and writes back the same rows and columns of the result. What it writes is the
  restriction of ONE whole-array function — `Spec.blockSum` of the activations and the super-blocks — to its
  block, and the 128 blocks tile the 8192 × 4096 result, so the result array is that function.
-/
import proofs.«116788_j15771119911211_2_alg».proof.Proof.Gen.KernelIdeal.Value
import proofs.«116788_j15771119911211_2_alg».proof.Proof.Spec
import proofs.«116788_j15771119911211_2_alg».proof.Proof.Payload

set_option maxRecDepth 16384

noncomputable section

namespace Cert.Proof.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Proof.Spec

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- ONE BLOCK: if `x0` is block `(bn, g)` of the activations `X` and `x2` is super-block `g` of `W`, the body's stored
    block is block `(bn, g)` of `blockSum X W`: a column `256 g + o` has group `g` and place `o`. -/
theorem block_entry (X : S8192x4096.Idx → EReal) (W : S16x256x256.Idx → EReal)
    (x0 : Vec Ideal S1024x256 .f32) (x2 : Vec Ideal S1x256x256 .f32) (bn g : ℕ) (hbn : bn ≤ 7) (hg : g ≤ 15)
    (h0 : ∀ (r : Fin 1024) (k : Fin 256), x0 (ix2 r k) = X (ix2 ⟨bn * 1024 + r.val, by have := r.isLt; omega⟩ ⟨g * 256 + k.val, by have := k.isLt; omega⟩))
    (h2 : ∀ (k o : Fin 256), x2 (ix3 (0 : Fin 1) k o) = W (ix3 ⟨g, by omega⟩ k o))
    (j : S1024x256.Idx) :
    k0_pay1 (F := Ideal) x0 x2 j
      = blockSum X W (ix2 ⟨bn * 1024 + (j 0).val, by have := idx2_lt0 j; omega⟩ ⟨g * 256 + (j 1).val, by have := idx2_lt1 j; omega⟩) := by
  obtain ⟨r, o, rfl⟩ : ∃ (r : Fin 1024) (o : Fin 256), j = ix2 r o := ⟨j 0, j 1, eq_ix2 j⟩
  rw [Cert.Proof.Payload.pay_apply]
  show _ = blockEntry X W ⟨bn * 1024 + r.val, _⟩ ⟨g * 256 + o.val, _⟩
  unfold blockEntry
  have hr := r.isLt
  have ho := o.isLt
  have eg : grp ⟨g * 256 + o.val, by omega⟩ = ⟨g, by omega⟩ := Fin.ext (by show (g * 256 + o.val) / 256 = g; omega)
  have eo : off ⟨g * 256 + o.val, by omega⟩ = o := Fin.ext (by show (g * 256 + o.val) % 256 = o.val; omega)
  rw [eg, eo]
  refine Finset.sum_congr rfl fun k _ => ?_
  rw [h0, h2]
  have ec : (⟨g * 256 + k.val, by have := k.isLt; omega⟩ : Fin 4096) = col ⟨g, by omega⟩ k := Fin.ext (by show g * 256 + k.val = 256 * g + k.val; omega)
  rw [ec]

/-- The printed index maps over the 128 grid points: the activations' window moves with the result's, the
    super-blocks' window follows the result's column block, and the result's block indices stay in range. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 3) = win0_2.index t (1 : Fin 2)
    ∧ win0_1.index t (1 : Fin 3) = 0
    ∧ win0_1.index t (2 : Fin 3) = 0
    ∧ win0_2.index t (0 : Fin 2) ≤ 7
    ∧ win0_2.index t (1 : Fin 2) ≤ 15 :=
  (by decide +kernel : ∀ t : Fin grid0.N, _)

/-- Every block of the result is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- WHAT POINT `t` WRITES BACK is block `t` of `blockSum` of the activations and the super-blocks as the region finds them. -/
theorem flushed_eq (c : Dev nD) (t : Fin cfg0.N) :
    (dats m 0 c).flushed 2 t = ((cfg0.win 2).blk t).view.read (Elt Ideal) (blockSum (V m c main_arg0) (V m c main_v32)) := by
  rw [Cert.KernelIdeal.Value.flushed2]
  unfold out0_2
  rw [View.canon_unit_zero zero2]
  simp only [View.ld_unit_zero (S := S1024x256) zero2, View.ld_unit_zero (S := S1x256x256) zero3]
  obtain ⟨e0, e1, e2, e3, e4, e5, e6⟩ := idx_facts t
  funext j
  show k0_pay1 (F := Ideal) (iblk m c 0 t) (iblk m c 1 t) j = blockSum (V m c main_arg0) (V m c main_v32) (((cfg0.win 2).blk t).view.emb j)
  have hemb : ((cfg0.win 2).blk t).view.emb j
      = ix2 ⟨win0_2.index t (0 : Fin 2) * 1024 + (j 0).val, by have := idx2_lt0 j; omega⟩ ⟨win0_2.index t (1 : Fin 2) * 256 + (j 1).val, by have := idx2_lt1 j; omega⟩ := by
    funext a; apply Fin.ext
    match a with
    | ⟨0, _⟩ => show win0_2.index t (0 : Fin 2) * 1024 + 1 * (j 0).val = win0_2.index t (0 : Fin 2) * 1024 + (j 0).val; omega
    | ⟨1, _⟩ => show win0_2.index t (1 : Fin 2) * 256 + 1 * (j 1).val = win0_2.index t (1 : Fin 2) * 256 + (j 1).val; omega
  rw [hemb]
  refine block_entry (V m c main_arg0) (V m c main_v32) (iblk m c 0 t) (iblk m c 1 t) (win0_2.index t (0 : Fin 2)) (win0_2.index t (1 : Fin 2)) e5 e6 (fun r k => ?_) (fun k o => ?_) j
  · show V m c main_arg0 (((cfg0.win 0).blk t).view.emb (ix2 r k)) = _
    refine congrArg (V m c main_arg0) (funext fun a => Fin.ext ?_)
    have hr := r.isLt
    have hk := k.isLt
    match a with
    | ⟨0, _⟩ => show win0_0.index t (0 : Fin 2) * 1024 + 1 * r.val = win0_2.index t (0 : Fin 2) * 1024 + r.val; omega
    | ⟨1, _⟩ => show win0_0.index t (1 : Fin 2) * 256 + 1 * k.val = win0_2.index t (1 : Fin 2) * 256 + k.val; omega
  · show V m c main_v32 (((cfg0.win 1).blk t).view.emb (ix3 (0 : Fin 1) k o)) = _
    refine congrArg (V m c main_v32) (funext fun a => Fin.ext ?_)
    have hk := k.isLt
    have ho := o.isLt
    match a with
    | ⟨0, _⟩ => show win0_1.index t (0 : Fin 3) * 1 + 1 * 0 = win0_2.index t (1 : Fin 2); omega
    | ⟨1, _⟩ => show win0_1.index t (1 : Fin 3) * 256 + 1 * k.val = k.val; omega
    | ⟨2, _⟩ => show win0_1.index t (2 : Fin 3) * 256 + 1 * o.val = o.val; omega

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v33).slice (win0_2.rect t)).set ↔ _
  rw [View.set_slice_whole, Rect.mem_set_unit]
  exact Iff.rfl

/-- THE BLOCKS TILE THE RESULT: entry `(n, c)` is in the block of the point with row block `n / 1024` and column block `c / 256`. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 256, by omega⟩
  have q0 : win0_2.index t (0 : Fin 2) = (i 0).val / 1024 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE RESULT ARRAY after the run. -/
theorem final (c : Dev nD) :
    (dats m 0 c).arrAt 2 cfg0.N = blockSum (m ((c : Thread nD τ).loc main_arg0)) (V m c main_v32) := by
  rw [← V_main_arg0 m c]
  exact (dats m 0 c).arrAt_eq_of_cover 2 (blockSum (V m c main_arg0) (V m c main_v32)) (fun t _ => flushed_eq m c t) cover

/-- The kernel's run with its result array named: the block sum of the activations as launched and the
    super-blocks the host operations built, the arguments unchanged. -/
theorem run : θ_run defs (onTc (τ := τ) (main (F := Ideal))) ⟨m, fun _ => 0, ρ⟩ fun r => ∀ c : Dev nD,
      r.2.mem ((c : Thread nD τ).loc main_v33) = blockSum (m ((c : Thread nD τ).loc main_arg0)) (V m c main_v32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Proof.KernelValue

end
-- ==== Proof.RefValue.lean ====
/-
  The reference's result as the dense sum: its one `dot_general` contracts the activations' columns against the
  columns of the masked weight `weight · mask`, so entry `(n, c)` is `∑ k, x[n, k] · (weight[c, k] · mask[c, k])` over
  all 4096 columns `k`.
-/
import proofs.«116788_j15771119911211_2_alg».proof.Proof.Gen.ReferenceIdeal.Read
import proofs.«116788_j15771119911211_2_alg».proof.Proof.Spec

noncomputable section

namespace Cert.Proof.RefValue

open Cert.ReferenceIdeal Cert.ReferenceIdeal.Gen Idealize.ShloMosaic Idealize.ShloMosaic.ValueIdx Cert.Proof.Spec

/-- The reference's last stage, index by index, is the dense sum of its three arguments. -/
theorem ref_eq (x0 : S8192x4096.Idx → EReal) (x1 x2 : S4096x4096.Idx → EReal) :
    Cert.ReferenceIdeal.Read.val_main_v1 (F := Ideal) x0 x1 x2 = denseSum x0 x1 x2 := by
  funext i
  rw [Cert.ReferenceIdeal.Read.val_main_v1_apply]
  show _ = denseEntry x0 x1 x2 ⟨(i 0).val, idx2_lt0 i⟩ ⟨(i 1).val, idx2_lt1 i⟩
  unfold denseEntry
  refine Finset.sum_congr rfl fun k _ => ?_
  rw [Cert.ReferenceIdeal.Read.val_main_v0_apply]
  have el : Cert.ReferenceIdeal.Read.lidx_main_v1 i k = ix2 ⟨(i 0).val, idx2_lt0 i⟩ k :=
    funext fun a => Fin.ext (by match a with | ⟨0, _⟩ => rfl | ⟨1, _⟩ => rfl)
  have er : Cert.ReferenceIdeal.Read.ridx_main_v1 i k = ix2 ⟨(i 1).val, idx2_lt1 i⟩ k :=
    funext fun a => Fin.ext (by match a with | ⟨0, _⟩ => rfl | ⟨1, _⟩ => rfl)
  rw [el, er]
  rfl

end Cert.Proof.RefValue

end
-- ==== Proof.MaskBlocks.lean ====
/-
  The block structure of the mask, read back from the stated precondition.

  The precondition is a conjunction of four "all entries" tests. The fourth one views the mask, a 4096 x 4096
  array, as a 64 x 64 x 64 x 64 array M4[a, r, b, c] = mask[64 a + r, 64 b + c] (a row-major reshape) and says that at
  every index either a = b or M4[a, r, b, c] = 0. Read at a = o / 64, r = o % 64, b = i / 64, c = i % 64 with
  o / 64 ≠ i / 64, it says mask[o, i] = 0: the mask vanishes off its 64 x 64 diagonal blocks.
-/
import proofs.«116788_j15771119911211_2_alg».proof.Pre_finite_inputs
import proofs.«116788_j15771119911211_2_alg».proof.Proof.Gen.Pre_finite_inputs
import Idealize.ShloMosaic.Lib.ValueIdx
import Idealize.ShloMosaic.Lib.Pipeline.Value
import Idealize.ShloMosaic.Lib.ReduceAll
import Idealize.ShloMosaic.Lib.WordArith
import Idealize.ShloMosaic.Lib.IdealHost
import Idealize.ShloMosaic.PureOps.Ideal

noncomputable section

namespace Cert.Proof.MaskBlocks

open Idealize.ShloMosaic Idealize.ShloMosaic.ValueIdx
open Cert.Pre_finite_inputs

/-- Two numbers below 64 with the same 32-bit word are equal. -/
theorem eq_of_ofNat32_eq {a b : Nat} (ha : a < 64) (hb : b < 64)
    (h : BitVec.ofNat 32 a = BitVec.ofNat 32 b) : a = b := by
  have e := congrArg BitVec.toNat h
  rw [BitVec.toNat_ofNat, BitVec.toNat_ofNat] at e
  omega

/-- The result of a full reduction has one index. -/
instance : Subsingleton S_.Idx := ⟨fun _ _ => funext fun d => d.elim0⟩

/-- One entry of the test "same block coordinate, or the entry is zero": where the two block coordinates (axes 0 and 2
    of the index) differ, a 1 there says the entry is zero. -/
theorem entry_zero_of_test (z : FVec Ideal S64x64x64x64 .f32) (j : S64x64x64x64.Idx) (hj : (j 0).val ≠ (j 2).val)
    (h : ori (cmpi .eq (iotaInDim S64x64x64x64 32 0) (iotaInDim S64x64x64x64 32 2))
          (cmpf .oeq z (broadcastInDim S64x64x64x64 ![] Facts.bcast_S_S64x64x64x64 (constant S_ .f32 0x00000000#32))) j = 1#1) :
    z j = 0 := by
  have h' : IntOp.ori (IntOp.cmpi .eq (BitVec.ofNat 32 (j 0).val) (BitVec.ofNat 32 (j 2).val))
      (Ideal.cmp .oeq (z j) (Ideal.ofBits .f32 0x00000000#32)) = 1#1 := h
  rcases IntOp.ori_eq_one.1 h' with h1 | h2
  · exact absurd (eq_of_ofNat32_eq (j 0).isLt (j 2).isLt (IntOp.cmpi_eq.1 h1)) hj
  · have e : z j = Ideal.ofBits .f32 0x00000000#32 := of_decide_eq_true ((WordArith.ofBool_eq_one_iff _).1 h2)
    rw [e, Ideal.ofBits_zero_f32]

/-- The mask seen as a 64 x 64 x 64 x 64 array, at block row o / 64, row o % 64, block column i / 64, column i % 64,
    is the entry (o, i): both sit at row-major position 4096 o + i. -/
theorem reshape_entry (x2 : FVec Ideal S4096x4096 .f32) (o i : Fin 4096) :
    shapeCast S64x64x64x64 x2 Facts.shapeCasts_S4096x4096_S64x64x64x64
        (ix4 (⟨o.val / 64, by omega⟩ : Fin 64) (⟨o.val % 64, by omega⟩ : Fin 64)
             (⟨i.val / 64, by omega⟩ : Fin 64) (⟨i.val % 64, by omega⟩ : Fin 64))
      = x2 (ix2 o i) := by
  refine shapeCast_apply x2 _ _ (ix2 o i) ?_
  rw [Shape.rowMajor_val_two, Shape.rowMajor_val_four]
  show o.val * 4096 + i.val = ((o.val / 64 * 64 + o.val % 64) * 64 + i.val / 64) * 64 + i.val % 64
  omega

/-- Under the precondition the mask is zero off its 64 x 64 diagonal blocks. -/
theorem mask_zero_off_block
    (x0 : FVec Ideal S8192x4096 .f32) (x1 x2 : FVec Ideal S4096x4096 .f32)
    (h : Cert.Pre_finite_inputs.fn (F := Ideal) x0 x1 x2 = fun _ => 1#1)
    (o i : Fin 4096) (hne : o.val / 64 ≠ i.val / 64) :
    x2 (ix2 o i) = 0 := by
  have h0 := congrFun h ix0
  dsimp only [Cert.Pre_finite_inputs.fn, Cert.Pre_finite_inputs.fn_part1] at h0
  have h1 := (IntOp.andi_eq_one.1 h0).2
  rw [← reshape_entry x2 o i]
  exact entry_zero_of_test _ _ hne (Host.reduce_andi_all _ _ _ _ _ h1 _)

end Cert.Proof.MaskBlocks

end
-- ==== Proof.Weights.lean ====
/-
  What the kernel program's host operations hand the custom call as its second operand.

  The program reshapes the weight and the mask, both [4096, 4096], to [16, 256, 16, 256], gathers from each the sixteen
  diagonal blocks (block `g` is the slice `[g, :, g, :]`; the start indices are row `g ↦ (g, g)`, built from an iota
  through the wrap of negative indices), multiplies the two gathered arrays entry by entry and swaps the last two axes.
  Read at `(g, k, o)` the result is `weight[256 g + o, 256 g + k] * mask[256 g + o, 256 g + k]` (`weights_apply`).

  The steps: the buffer as the composed term of the operations (`buf_eq`); the gather of these dimension numbers read
  at an index, for any operand and any start indices (`gather_apply`); the start indices at `(g, 0)` and `(g, 1)`
  (`starts_apply_zero`, `starts_apply_one`); a gathered block read at an index (`diagBlocks_apply`).
-/
import proofs.«116788_j15771119911211_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.IdealHost
import Idealize.ShloMosaic.Lib.DynamicIndex

noncomputable section

namespace Cert.Proof.Weights

open Idealize.ShloMosaic Idealize.ShloMosaic.TcCoe Idealize.SL.Sem Idealize.ShloMosaic.ValueIdx Cert.KernelIdeal Cert.KernelIdeal.Gen

/-! ## The operations' terms -/

/-- Row numbers `0 … 15` as 32-bit words, through the wrap of negative indices `select (i < 0) (i + 16) i`. -/
def rowIdx : IVec S16 32 :=
  select (cmpi .slt (iotaInDim S16 32 0) (broadcastInDim S16 ![] bcast_S_S16 (constantI S_ 32 0#32)))
    (addi (iotaInDim S16 32 0) (broadcastInDim S16 ![] bcast_S_S16 (constantI S_ 32 16#32))) (iotaInDim S16 32 0)

/-- A vector `r` of sixteen words as the [16, 2] array whose row `g` is `(r g, r g)`: two [16, 1] columns side by side. -/
def startsOf (r : IVec S16 32) : IVec S16x2 32 :=
  concatenate S16x2 1 [⟨S16x1, broadcastInDim S16x1 ![0] bcast_S16_S16x1_0 r⟩,
    ⟨S16x1, broadcastInDim S16x1 ![0] bcast_S16_S16x1_0 r⟩] concatenates_S16x1_S16x1_S16x2_d1

/-- The start indices of the gather: row `g` is `(rowIdx g, rowIdx g)`. -/
def starts : IVec S16x2 32 := startsOf rowIdx

/-- The sixteen diagonal 256×256 blocks of a 4096×4096 array, gathered out of its [16, 256, 16, 256] reshape. -/
def diagBlocks (x : S4096x4096.Idx → EReal) : S16x256x256.Idx → EReal :=
  Host.gather gather_S16x256x16x256_S16x2_S16x256x256_12_02_n_n_02_1_12561256
    (shapeCast S16x256x16x256 x shapeCasts_S4096x4096_S16x256x16x256) starts

-- the chain before the region has forty-one operations
set_option maxHeartbeats 1000000 in
/-- The second operand's buffer when the region is entered, as the operations' composed term of the two argument arrays:
    the product of their gathered diagonal blocks, the last two axes swapped. -/
theorem buf_eq (m : (ℓ : Loc nD τ sig) → Buf (Elt Ideal) ℓ) (c : Dev nD) :
    (V m c main_v32 : S16x256x256.Idx → EReal)
      = transpose S16x256x256 [0, 2, 1]
          (mulf (F := Ideal) (φ := .f32) (diagBlocks (m ((c : Thread nD τ).loc main_arg1)))
            (diagBlocks (m ((c : Thread nD τ).loc main_arg2))))
          transposes_S16x256x256_S16x256x256_0_2_1 := by
  dsimp only [Gen.V, Gen.hostOps0]
  after_results_simp
  rfl

/-! ## The gather read at an index -/

/-- The gather's dimension numbers: operand [16,256,16,256], start indices [16,2], result [16,256,256]; operand axes 0 and 2
    are collapsed and indexed by the start index's two components, axes 1 and 3 are the result's offset axes 1 and 2. -/
abbrev G : GatherDims S16x256x16x256 S16x2 S16x256x256 := gather_S16x256x16x256_S16x2_S16x256x256_12_02_n_n_02_1_12561256

/-- The start-indices index at which result index `(g, p, q)` reads component `0` of its start index is `(g, 0)`. -/
theorem siIdx_zero (g : Fin 16) (p q : Fin 256) (h : List.idxOf (0 : Fin 4) G.startIndexMap < G.startIndexMap.length) :
    G.siIdx (ix3 g p q) ⟨List.idxOf (0 : Fin 4) G.startIndexMap, h⟩ = ix2 g 0 := by
  funext b; refine Fin.ext ?_
  match b with
  | ⟨0, _⟩ => rfl
  | ⟨1, _⟩ => rfl

/-- … and component `1`, the one for operand axis 2, at `(g, 1)`. -/
theorem siIdx_one (g : Fin 16) (p q : Fin 256) (h : List.idxOf (2 : Fin 4) G.startIndexMap < G.startIndexMap.length) :
    G.siIdx (ix3 g p q) ⟨List.idxOf (2 : Fin 4) G.startIndexMap, h⟩ = ix2 g 1 := by
  funext b; refine Fin.ext ?_
  match b with
  | ⟨0, _⟩ => rfl
  | ⟨1, _⟩ => rfl

/-- THE GATHER READ AT `(g, p, q)`: the operand at `(s₀, p, s₂, q)`, where `s₀` and `s₂` are the two components of the
    start index at row `g`, read signed and clamped into `[0, 15]` (the slice has extent 1 on the operand's axes 0 and 2,
    whose extent is 16). -/
theorem gather_apply {α : Type} (x : S16x256x16x256.Idx → α) (idx : IVec S16x2 32) (g : Fin 16) (p q : Fin 256)
    (s₀ s₂ : Fin 16) (h₀ : min (idx (ix2 g 0)).toInt.toNat 15 = s₀.val) (h₂ : min (idx (ix2 g 1)).toInt.toNat 15 = s₂.val) :
    Host.gather G x idx (ix3 g p q) = x (ix4 s₀ p s₂ q) := by
  unfold Host.gather
  refine congrArg x (funext fun a => Fin.ext ?_)
  match a with
  | ⟨0, _⟩ =>
    show G.start (ix3 g p q) idx 0 + G.batchCoord (ix3 g p q) 0 + G.offCoord (ix3 g p q) 0 = s₀.val
    rw [G.batchCoord_eq_zero _ _ List.not_mem_nil,
      G.offCoord_eq_zero _ _ (fun h => ((G.mem_sKept _).mp h).1 (by decide))]
    unfold GatherDims.start
    rw [dif_pos (show (0 : Fin 4) ∈ G.startIndexMap by decide), siIdx_zero]
    exact h₀
  | ⟨1, _⟩ =>
    show G.start (ix3 g p q) idx 1 + G.batchCoord (ix3 g p q) 1 + G.offCoord (ix3 g p q) 1 = p.val
    rw [G.batchCoord_eq_zero _ _ List.not_mem_nil]
    unfold GatherDims.start GatherDims.offCoord
    rw [dif_neg (show (1 : Fin 4) ∉ G.startIndexMap by decide), dif_pos (show (1 : Fin 4) ∈ G.sKept by decide),
      Nat.zero_add]
    rfl
  | ⟨2, _⟩ =>
    show G.start (ix3 g p q) idx 2 + G.batchCoord (ix3 g p q) 2 + G.offCoord (ix3 g p q) 2 = s₂.val
    rw [G.batchCoord_eq_zero _ _ List.not_mem_nil,
      G.offCoord_eq_zero _ _ (fun h => ((G.mem_sKept _).mp h).1 (by decide))]
    unfold GatherDims.start
    rw [dif_pos (show (2 : Fin 4) ∈ G.startIndexMap by decide), siIdx_one]
    exact h₂
  | ⟨3, _⟩ =>
    show G.start (ix3 g p q) idx 3 + G.batchCoord (ix3 g p q) 3 + G.offCoord (ix3 g p q) 3 = q.val
    rw [G.batchCoord_eq_zero _ _ List.not_mem_nil]
    unfold GatherDims.start GatherDims.offCoord
    rw [dif_neg (show (3 : Fin 4) ∉ G.startIndexMap by decide), dif_pos (show (3 : Fin 4) ∈ G.sKept by decide),
      Nat.zero_add]
    rfl

/-- The word `g`, `g < 16`, read signed and clamped into `[0, 15]`, is `g`. -/
theorem clamp_word (g : Fin 16) : min (BitVec.ofNat 32 g.val).toInt.toNat 15 = g.val := by
  rw [toInt_ofNat_of_lt (by omega), Int.toNat_natCast]
  omega

/-- With start index `(g, g)` at row `g`, the gather reads the operand at `(g, p, g, q)`. -/
theorem gather_diag {α : Type} (x : S16x256x16x256.Idx → α) (idx : IVec S16x2 32) (g : Fin 16) (p q : Fin 256)
    (h₀ : idx (ix2 g 0) = BitVec.ofNat 32 g.val) (h₁ : idx (ix2 g 1) = BitVec.ofNat 32 g.val) :
    Host.gather G x idx (ix3 g p q) = x (ix4 g p g q) :=
  gather_apply x idx g p q g g (by rw [h₀]; exact clamp_word g) (by rw [h₁]; exact clamp_word g)

/-! ## The start indices -/

/-- `rowIdx` at `g` is the word `g`: the number is not negative, so the wrap leaves it. -/
theorem rowIdx_apply (g : Fin 16) : rowIdx (ix1 g) = BitVec.ofNat 32 g.val := by
  unfold rowIdx
  show select (cmpi .slt (iotaInDim S16 32 0) (constantI S16 32 0#32)) _ _ (ix1 g) = _
  refine (select_slt_zero_of_nonneg (iotaInDim S16 32 0) _ _ (ix1 g) ?_).trans rfl
  show 0 ≤ (BitVec.ofNat 32 g.val).toInt
  rw [toInt_ofNat_of_lt (by omega)]
  omega

/-- A vector of sixteen words laid as a [16, 1] column, read at `(g, 0)`, is the vector at `g`. -/
theorem col_apply (r : IVec S16 32) (g : Fin 16) :
    broadcastInDim S16x1 ![0] bcast_S16_S16x1_0 r (ix2 g (0 : Fin 1)) = r (ix1 g) := by
  refine broadcastInDim_apply (s := S16) (t := S16x1) ![0] bcast_S16_S16x1_0 r (ix2 g (0 : Fin 1)) (ix1 g) ?_
  intro a
  match a with
  | ⟨0, _⟩ => rfl

/-- Row `g` of `startsOf r` has first component `r g` … -/
theorem startsOf_apply_zero (r : IVec S16 32) (g : Fin 16) : startsOf r (ix2 g 0) = r (ix1 g) := by
  unfold startsOf
  refine (concatenate_pair_apply_left (t := S16x2) (s₁ := S16x1) (s₂ := S16x1) (1 : Fin S16x2.rank)
    (broadcastInDim S16x1 ![0] bcast_S16_S16x1_0 r) (broadcastInDim S16x1 ![0] bcast_S16_S16x1_0 r)
    concatenates_S16x1_S16x1_S16x2_d1 (ix2 g (0 : Fin 2)) rfl (ix2 g (0 : Fin 1)) ?_).trans (col_apply r g)
  intro b
  match b with
  | ⟨0, _⟩ => rfl
  | ⟨1, _⟩ => rfl

/-- … and second component `r g` too. -/
theorem startsOf_apply_one (r : IVec S16 32) (g : Fin 16) : startsOf r (ix2 g 1) = r (ix1 g) := by
  unfold startsOf
  refine (concatenate_pair_apply_right (t := S16x2) (s₁ := S16x1) (s₂ := S16x1) (1 : Fin S16x2.rank)
    (broadcastInDim S16x1 ![0] bcast_S16_S16x1_0 r) (broadcastInDim S16x1 ![0] bcast_S16_S16x1_0 r)
    concatenates_S16x1_S16x1_S16x2_d1 (ix2 g (1 : Fin 2)) rfl rfl (ix2 g (0 : Fin 1)) ?_ rfl).trans (col_apply r g)
  intro b hb
  match b, hb with
  | ⟨0, _⟩, _ => rfl
  | ⟨1, _⟩, hb => exact absurd rfl hb

/-- The start index at row `g` is `(g, g)`. -/
theorem starts_apply_zero (g : Fin 16) : starts (ix2 g 0) = BitVec.ofNat 32 g.val :=
  (startsOf_apply_zero rowIdx g).trans (rowIdx_apply g)
theorem starts_apply_one (g : Fin 16) : starts (ix2 g 1) = BitVec.ofNat 32 g.val :=
  (startsOf_apply_one rowIdx g).trans (rowIdx_apply g)

/-! ## The blocks and the operand at an index -/

/-- BLOCK `g` OF THE GATHER at `(p, q)` is the array at row `256 g + p`, column `256 g + q`: index `(g, p, g, q)` of the
    [16, 256, 16, 256] reshape is row-major position `((256 g + p) · 16 + g) · 256 + q = (256 g + p) · 4096 + (256 g + q)`. -/
theorem diagBlocks_apply (x : S4096x4096.Idx → EReal) (g : Fin 16) (p q : Fin 256) :
    diagBlocks x (ix3 g p q)
      = x (ix2 (⟨256 * g.val + p.val, by omega⟩ : Fin 4096) (⟨256 * g.val + q.val, by omega⟩ : Fin 4096)) := by
  unfold diagBlocks
  refine (gather_diag _ starts g p q (starts_apply_zero g) (starts_apply_one g)).trans ?_
  refine shapeCast_apply x shapeCasts_S4096x4096_S16x256x16x256 (ix4 g p g q) _ ?_
  rw [Shape.rowMajor_val_two, Shape.rowMajor_val_four]
  show (256 * g.val + p.val) * 4096 + (256 * g.val + q.val) = ((g.val * 256 + p.val) * 16 + g.val) * 256 + q.val
  omega

/-- THE SECOND OPERAND AT `(g, k, o)`: the weight times the mask at row `256 g + o`, column `256 g + k`. -/
theorem weights_apply (m : (ℓ : Loc nD τ sig) → Buf (Elt Ideal) ℓ) (c : Dev nD) (w mk : S4096x4096.Idx → EReal)
    (hw : w = m ((c : Thread nD τ).loc main_arg1)) (hmk : mk = m ((c : Thread nD τ).loc main_arg2))
    (g : Fin 16) (k o : Fin 256) :
    (V m c main_v32 : S16x256x256.Idx → EReal) (ix3 g k o)
      = w (ix2 ⟨256 * g.val + o.val, by omega⟩ ⟨256 * g.val + k.val, by omega⟩)
        * mk (ix2 ⟨256 * g.val + o.val, by omega⟩ ⟨256 * g.val + k.val, by omega⟩) := by
  subst hw hmk
  rw [buf_eq]
  refine (transpose_apply [0, 2, 1] _ transposes_S16x256x256_S16x256x256_0_2_1 (ix3 g k o) (ix3 g o k) ?_).trans ?_
  · intro b
    match b with
    | ⟨0, _⟩ => rfl
    | ⟨1, _⟩ => rfl
    | ⟨2, _⟩ => rfl
  · rw [mulf_apply, diagBlocks_apply, diagBlocks_apply]

end Cert.Proof.Weights

end
-- ==== Proof.lean ====
/-
  The certificate of the grouped block-diagonal product against the dense masked product.

  The kernel multiplies, for each of the 16 groups of 256 feature columns, the activations' columns of the group
  by the group's 256×256 diagonal super-block of `weight · mask` (gathered, multiplied and transposed by host
  operations before the launch); the reference contracts all 4096 columns against `weight · mask`. Under the
  precondition the mask is zero off its 64×64 diagonal blocks, so every column outside an entry's group
  contributes `x · (w · 0) = 0` and the two sums agree, on the extended reals. The three frames are the generated
  runs; the idealization rewrote nothing; the value claim sets the kernel's run (`KernelValue.run`: the result
  array is `Spec.blockSum`) beside the reference's (`RefValue.ref_eq`: its result is `Spec.denseSum`) and joins
  them by `Spec.denseSum_eq_blockSum`, with the super-blocks read off the host operations (`Weights.weights_apply`)
  and the mask's zeros read off the precondition (`MaskBlocks.mask_zero_off_block`).
-/
import proofs.«116788_j15771119911211_2_alg».proof.Defs
import proofs.«116788_j15771119911211_2_alg».proof.Proof.Gen.Kernel
import proofs.«116788_j15771119911211_2_alg».proof.Proof.Gen.Kernel.Skeleton
import proofs.«116788_j15771119911211_2_alg».proof.Proof.Gen.Kernel.Launch
import proofs.«116788_j15771119911211_2_alg».proof.Proof.Gen.Kernel.Points
import proofs.«116788_j15771119911211_2_alg».proof.Proof.Gen.Kernel.Frame
import proofs.«116788_j15771119911211_2_alg».proof.Proof.Gen.KernelIdeal
import proofs.«116788_j15771119911211_2_alg».proof.Proof.Gen.KernelIdeal.Skeleton
import proofs.«116788_j15771119911211_2_alg».proof.Proof.Gen.KernelIdeal.Launch
import proofs.«116788_j15771119911211_2_alg».proof.Proof.Gen.KernelIdeal.Points
import proofs.«116788_j15771119911211_2_alg».proof.Proof.Gen.KernelIdeal.Frame
import proofs.«116788_j15771119911211_2_alg».proof.Proof.Gen.ReferenceIdeal
import proofs.«116788_j15771119911211_2_alg».proof.Proof.Gen.Pre_finite_inputs
import proofs.«116788_j15771119911211_2_alg».proof.Proof.Gen.KernelIdeal.Value
import proofs.«116788_j15771119911211_2_alg».proof.Proof.Gen.ReferenceIdeal.Run
import proofs.«116788_j15771119911211_2_alg».proof.Proof.Gen.ReferenceIdeal.Read
import proofs.«116788_j15771119911211_2_alg».proof.Proof.Spec
import proofs.«116788_j15771119911211_2_alg».proof.Proof.KernelValue
import proofs.«116788_j15771119911211_2_alg».proof.Proof.RefValue
import proofs.«116788_j15771119911211_2_alg».proof.Proof.MaskBlocks
import proofs.«116788_j15771119911211_2_alg».proof.Proof.Weights
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the block sum of the activations and the transposed masked diagonal super-blocks: the
    kernel by its run, the reference because its dense sum is that block sum once the mask is zero off the
    diagonal 64×64 blocks. -/
theorem algebraic : Cert.algebraic_KernelIdeal_ReferenceIdeal := by
  intro m ρ m' ρ' hpre hagree
  refine ⟨fun c => Cert.Proof.Spec.blockSum (m ((c : Thread Cert.KernelIdeal.nD Cert.KernelIdeal.τ).loc Cert.KernelIdeal.main_arg0)) (Cert.KernelIdeal.Gen.V m c Cert.KernelIdeal.main_v32),
    Cert.Proof.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq, Cert.Proof.RefValue.ref_eq]
  exact Cert.Proof.Spec.denseSum_eq_blockSum _ _ _ _ (fun g k o => Cert.Proof.Weights.weights_apply m c _ _ rfl rfl g k o)
    (fun o j hne => Cert.Proof.MaskBlocks.mask_zero_off_block _ _ _ (hpre c) o j hne)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
